-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x2048 .f32) (main_arg5 : FVec F S1024 .f32) (main_arg6 : FVec F S1024x2048 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x2048 .f32) (main_arg3 : FVec F S1024 .f32) (main_arg4 : FVec F S1024x2048 .f32) (main_arg5 : FVec F S1024 .f32) (main_arg6 : FVec F S1024x2048 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 30
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x2048_S1024x1024_0_0 : S1024x2048.Slices ![0, 0] S1024x1024
  transposes_S1024x1024_S1024x1024_1_0 : S1024x1024.Transposes [1, 0] S1024x1024
  bitsLt_bf16_f32 : FTy.bits .bf16 < FTy.bits .f32
  slices_S1024x2048_S1024x1024_0_1024 : S1024x2048.Slices ![0, 1024] S1024x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S8192x1024.size a
  hwx0_11 : ∀ i : grid0.Coords, EltTy.bits .f32 = 32 ∨ (Rect.block (s := S8192x1024) S512x1024.size (cc0_transform_11 i) (hinb0_11 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S2048x1024 : Shape := ⟨2, ![2048, 1024]⟩
abbrev S1x1024 : Shape := ⟨2, ![1, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S8192x2048, .f32⟩
  | .hbm, ⟨9, _⟩ => ⟨S2048x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S2048x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x2048, .f32⟩
  | .hbm, ⟨37, _⟩ => ⟨S2048x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.GruSpec.lean ====
/-
  The gated recurrent cell, as one function of its eight argument arrays on the extended reals.

  For a batch row p and a hidden unit j, each gate first takes an affine form of the row: with the weight matrix
  W of shape [1024, 2048] read as two halves along its second axis,

      affine W b x h (p, j) = Σ_k x(p,k) · W(j,k)  +  Σ_k h(p,k) · W(j,1024+k)  +  b(j),

  the first half acting on the input row and the second on the state row.  Then

      r = σ(affine Wr br x h),   z = σ(affine Wz bz x h),   g = tanh(affine Wg bg x (r ⊙ h)),
      h' = (1 − z) ⊙ g + z ⊙ h,

  with σ the logistic function and ⊙ the entrywise product.  The constant 1 is kept as the f32 pattern both programs
  print, so it is never evaluated.  Both programs are shown to compute `cell`: the kernel one block of 512 rows at a
  time with the two half-products added, the reference through one product over the joined 2048 columns.
-/
import Idealize.ShloMosaic.PureOps.Ideal
import Idealize.ShloMosaic.Lib.ValueIdx

noncomputable section

open scoped BigOperators

namespace Cert.Gru

open Idealize.ShloMosaic Idealize.ShloMosaic.ValueIdx

/-- A [batch, hidden] array of extended reals: the input, the state, a gate, the result. -/
abbrev Act : Type := (⟨2, ![8192, 1024]⟩ : Shape).Idx → EReal
/-- A weight matrix [hidden, input + hidden]. -/
abbrev Wt : Type := (⟨2, ![1024, 2048]⟩ : Shape).Idx → EReal
/-- A bias vector [hidden]. -/
abbrev Bias : Type := (⟨1, ![1024]⟩ : Shape).Idx → EReal

/-- Column k of the first half of a weight row. -/
abbrev colL (k : Fin 1024) : Fin 2048 := ⟨k.val, Nat.lt_trans k.isLt (by decide)⟩
/-- Column k of the second half of a weight row. -/
abbrev colR (k : Fin 1024) : Fin 2048 := ⟨1024 + k.val, by have := k.isLt; omega⟩

/-- The affine form of row p for hidden unit j: the input row against the first half of weight row j, plus the state
    row against its second half, plus the bias. -/
def affine (W : Wt) (b : Bias) (x h : Act) (p : Fin 8192) (j : Fin 1024) : EReal :=
  (∑ k : Fin 1024, x (ix2 p k) * W (ix2 j (colL k))) + (∑ k : Fin 1024, h (ix2 p k) * W (ix2 j (colR k))) + b (ix1 j)

/-- A gate: the logistic function of the affine form, entry by entry. -/
def gate (W : Wt) (b : Bias) (x h : Act) : Act := fun i => Ideal.logistic (affine W b x h (i 0) (i 1))

/-- The state the candidate sees: the reset gate times the state, entry by entry. -/
def resetState (Wr : Wt) (br : Bias) (x h : Act) : Act := fun i => gate Wr br x h i * h i

/-- The new state. -/
def cell (x h : Act) (Wr : Wt) (br : Bias) (Wz : Wt) (bz : Bias) (Wg : Wt) (bg : Bias) : Act := fun i =>
  (Ideal.ofBits .f32 0x3F800000#32 - gate Wz bz x h i)
      * Ideal.tanh (affine Wg bg x (resetState Wr br x h) (i 0) (i 1))
    + gate Wz bz x h i * h i

end Cert.Gru

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.RefValue.lean ====
/-
  The reference computes `Gru.cell`.

  The reference joins the input and the state side by side into a [8192, 2048] array and multiplies it by the
  transposed weight matrix: entry (p, q) of that product is Σ over the 2048 joined columns, which splits into the
  first 1024 columns (the input row against the first half of weight row q) plus the last 1024 (the state row against
  the second half) — a regrouping of one finite sum, valid for all extended reals.  The bias reaches the product as a
  [1, 1024] row spread over the rows.  The logistic function is spelt 1 / (1 + e^(−t)), which is its definition on
  the extended reals.  The candidate's affine form is the same stage applied to the input and to the reset gate
  times the state.
-/
import proofs.«115252_j472446402807_2_alg».proof.Proof.RefRun
import proofs.«115252_j472446402807_2_alg».proof.Proof.GruSpec
import proofs.«115252_j472446402807_2_alg».proof.Proof.LibPlainDot
import proofs.«115252_j472446402807_2_alg».proof.Proof.LibSideBySide
import proofs.«115252_j472446402807_2_alg».proof.Proof.LibHostMatrix
import proofs.«115252_j472446402807_2_alg».proof.Proof.LibBroadcastInDim2
import proofs.«115252_j472446402807_2_alg».proof.Proof.LibLogisticTanh
import Idealize.ShloMosaic.Lib.Pipeline.Value
import Idealize.ShloMosaic.Lib.ValueIdx

noncomputable section

open scoped BigOperators

namespace Cert.Gru.Ref

open Cert.ReferenceIdeal Cert.ReferenceIdeal.Gen Idealize.ShloMosaic Idealize.ShloMosaic.ValueIdx

/-- The reference's affine stage: the joined rows times the transposed weights, plus the bias spread over the rows. -/
def affStage (x hh : FVec Ideal S8192x1024 .f32) (W : FVec Ideal S1024x2048 .f32) (b : FVec Ideal S1024 .f32) :
    FVec Ideal S8192x1024 .f32 :=
  addf (Host.dotGeneral dot_S8192x2048_S2048x1024_S8192x1024_1_0_0_1_n_n none
          (concatenate S8192x2048 1 [⟨S8192x1024, x⟩, ⟨S8192x1024, hh⟩] concatenates_S8192x1024_S8192x1024_S8192x2048_d1)
          (transpose S2048x1024 [1, 0] W transposes_S1024x2048_S2048x1024_1_0))
       (broadcastInDim S8192x1024 ![0, 1] bcast_S1x1024_S8192x1024_0_1 (broadcastInDim S1x1024 ![1] bcast_S1024_S1x1024_1 b))

/-- The constant 1 spread over the [8192, 1024] shape. -/
def ones : FVec Ideal S8192x1024 .f32 :=
  broadcastInDim S8192x1024 ![] bcast_S_S8192x1024 (constant (F := Ideal) S_ .f32 0x3F800000#32)

/-- The reference's gate stage: 1 / (1 + e^(−t)) of the affine stage. -/
def gateStage (x hh : FVec Ideal S8192x1024 .f32) (W : FVec Ideal S1024x2048 .f32) (b : FVec Ideal S1024 .f32) :
    FVec Ideal S8192x1024 .f32 :=
  Host.divf ones (addf ones (Host.exp (Host.negf (affStage x hh W b))))

/-- The affine stage at (p, q): the sum over the 2048 joined columns regrouped into its two halves. -/
theorem affStage_apply (x hh : FVec Ideal S8192x1024 .f32) (W : FVec Ideal S1024x2048 .f32) (b : FVec Ideal S1024 .f32)
    (p : Fin 8192) (q : Fin 1024) : affStage x hh W b (ix2 p q) = Gru.affine W b x hh p q := by
  unfold affStage
  rw [addf_apply]
  show FloatOps.dotGeneral dot_S8192x2048_S2048x1024_S8192x1024_1_0_0_1_n_n none _
        (concatenate S8192x2048 1 [⟨S8192x1024, x⟩, ⟨S8192x1024, hh⟩] concatenates_S8192x1024_S8192x1024_S8192x2048_d1)
        (transpose S2048x1024 [1, 0] W transposes_S1024x2048_S2048x1024_1_0) (ix2 p q) + _ = _
  rw [Cert.Bridge.dotGeneral_plain _ rfl rfl rfl rfl rfl rfl, BroadcastInDim2.rowToMat_apply, BroadcastInDim2.vecToRow_apply,
    Cert.Bridge.sum_split (a := 1024) (b := 1024) (c := 2048) rfl]
  unfold Gru.affine
  refine congrArg₂ (· + ·) (congrArg₂ (· + ·) ?_ ?_) rfl
  · refine Finset.sum_congr rfl fun k _ => ?_
    show concatenate S8192x2048 1 [⟨S8192x1024, x⟩, ⟨S8192x1024, hh⟩] concatenates_S8192x1024_S8192x1024_S8192x2048_d1
          (ix2 p (Gru.colL k)) * transpose S2048x1024 [1, 0] W transposes_S1024x2048_S2048x1024_1_0 (ix2 (Gru.colL k) q)
        = x (ix2 p k) * W (ix2 q (Gru.colL k))
    rw [Cert.Bridge.sideBySide_left x hh _ p (Gru.colL k) k rfl, Cert.Lib.HostMatrix.transposed_apply]
  · refine Finset.sum_congr rfl fun k _ => ?_
    show concatenate S8192x2048 1 [⟨S8192x1024, x⟩, ⟨S8192x1024, hh⟩] concatenates_S8192x1024_S8192x1024_S8192x2048_d1
          (ix2 p (Gru.colR k)) * transpose S2048x1024 [1, 0] W transposes_S1024x2048_S2048x1024_1_0 (ix2 (Gru.colR k) q)
        = hh (ix2 p k) * W (ix2 q (Gru.colR k))
    rw [Cert.Bridge.sideBySide_right x hh _ p (Gru.colR k) k (Nat.add_comm _ _), Cert.Lib.HostMatrix.transposed_apply]

/-- The spread constant reads 1's pattern everywhere. -/
theorem ones_apply (i : S8192x1024.Idx) : ones i = Ideal.ofBits .f32 0x3F800000#32 :=
  Cert.Lib.HostMatrix.splat_apply bcast_S_S8192x1024 0x3F800000#32 i

/-- The gate stage is the gate. -/
theorem gateStage_eq (x hh : FVec Ideal S8192x1024 .f32) (W : FVec Ideal S1024x2048 .f32) (b : FVec Ideal S1024 .f32) :
    gateStage x hh W b = Gru.gate W b x hh := by
  funext i
  obtain ⟨p, q, rfl⟩ : ∃ (p : Fin 8192) (q : Fin 1024), i = ix2 p q := ⟨i 0, i 1, eq_ix2 i⟩
  show Ideal.div (ones (ix2 p q)) (ones (ix2 p q) + Ideal.exp (-(affStage x hh W b (ix2 p q)))) = Ideal.logistic (Gru.affine W b x hh p q)
  rw [ones_apply, affStage_apply, Cert.LibLogisticTanh.exp_spelling_f32]

/-- THE REFERENCE'S RESULT TERM is the cell: the blend of the candidate and the state by the update gate. -/
theorem result_eq (x h : FVec Ideal S8192x1024 .f32) (Wr : FVec Ideal S1024x2048 .f32) (br : FVec Ideal S1024 .f32)
    (Wz : FVec Ideal S1024x2048 .f32) (bz : FVec Ideal S1024 .f32) (Wg : FVec Ideal S1024x2048 .f32) (bg : FVec Ideal S1024 .f32) :
    addf (mulf (subf ones (gateStage x h Wz bz)) (Host.tanh (affStage x (mulf (gateStage x h Wr br) h) Wg bg)))
         (mulf (gateStage x h Wz bz) h)
      = Gru.cell x h Wr br Wz bz Wg bg := by
  rw [gateStage_eq, gateStage_eq]
  funext i
  obtain ⟨p, q, rfl⟩ : ∃ (p : Fin 8192) (q : Fin 1024), i = ix2 p q := ⟨i 0, i 1, eq_ix2 i⟩
  show (ones (ix2 p q) - Gru.gate Wz bz x h (ix2 p q))
        * Ideal.tanh (affStage x (mulf (Gru.gate Wr br x h) h) Wg bg (ix2 p q))
      + Gru.gate Wz bz x h (ix2 p q) * h (ix2 p q) = _
  rw [ones_apply, affStage_apply]
  rfl

end Cert.Gru.Ref

end
-- ==== Proof.KernelWindows.lean ====
/-
  What the kernel's windows deliver.

  Before the call the host cuts each weight matrix W [1024, 2048] into its two halves along the second axis,
  transposes each half and rounds it to bf16 (the identity on the extended reals): the operand for the first half has
  entry (k, q) = W(q, k), the one for the second half entry (k, q) = W(q, 1024 + k).  Each bias vector is reshaped to a
  [1, 1024] row.  The input and the state are passed as they are.
-/
import proofs.«115252_j472446402807_2_alg».proof.Proof.Gen.KernelIdeal.Frame
import proofs.«115252_j472446402807_2_alg».proof.Proof.GruSpec
import proofs.«115252_j472446402807_2_alg».proof.Proof.LibHostMatrix
import Idealize.ShloMosaic.Lib.Pipeline.Value
import Idealize.ShloMosaic.Lib.ValueIdx
import Idealize.ShloMosaic.Lib.StableHlo.Run

noncomputable section

namespace Cert.Gru.Kernel

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ)

/-- The reset gate's first weight operand: the first half of Wr, transposed. -/
theorem wrx_apply (c : Dev nD) (k q : Fin 1024) :
    (V m c main_v2 : S1024x1024.Idx → EReal) (ix2 k q) = (m ((c : Thread nD τ).loc main_arg2) : S1024x2048.Idx → EReal) (ix2 q (Gru.colL k)) := by
  have e : (V m c main_v2 : S1024x1024.Idx → EReal)
      = truncf (F := Ideal) .bf16 (transpose S1024x1024 [1, 0] (extractStridedSlice S1024x1024 ![0, 0]
          (m ((c : Thread nD τ).loc main_arg2) : S1024x2048.Idx → EReal) slices_S1024x2048_S1024x1024_0_0) transposes_S1024x1024_S1024x1024_1_0) bitsLt_bf16_f32 := by
    dsimp only [Gen.V, Gen.hostOps0]
    after_results
  rw [e, truncf_apply, Cert.Lib.HostMatrix.transposed_apply]
  exact extractStridedSlice_apply ![0, 0] _ slices_S1024x2048_S1024x1024_0_0 (ix2 q k) (ix2 q (Gru.colL k)) (fun a => match a with
    | ⟨0, _⟩ => by show q.val = 0 + q.val; omega
    | ⟨1, _⟩ => by show k.val = 0 + k.val; omega)

/-- The reset gate's second weight operand: the second half of Wr, transposed. -/
theorem wrh_apply (c : Dev nD) (k q : Fin 1024) :
    (V m c main_v5 : S1024x1024.Idx → EReal) (ix2 k q) = (m ((c : Thread nD τ).loc main_arg2) : S1024x2048.Idx → EReal) (ix2 q (Gru.colR k)) := by
  have e : (V m c main_v5 : S1024x1024.Idx → EReal)
      = truncf (F := Ideal) .bf16 (transpose S1024x1024 [1, 0] (extractStridedSlice S1024x1024 ![0, 1024]
          (m ((c : Thread nD τ).loc main_arg2) : S1024x2048.Idx → EReal) slices_S1024x2048_S1024x1024_0_1024) transposes_S1024x1024_S1024x1024_1_0) bitsLt_bf16_f32 := by
    dsimp only [Gen.V, Gen.hostOps0]
    after_results
  rw [e, truncf_apply, Cert.Lib.HostMatrix.transposed_apply]
  exact extractStridedSlice_apply ![0, 1024] _ slices_S1024x2048_S1024x1024_0_1024 (ix2 q k) (ix2 q (Gru.colR k)) (fun a => match a with
    | ⟨0, _⟩ => by show q.val = 0 + q.val; omega
    | ⟨1, _⟩ => by show 1024 + k.val = 1024 + k.val; rfl)

/-- The update gate's first weight operand: the first half of Wz, transposed. -/
theorem wzx_apply (c : Dev nD) (k q : Fin 1024) :
    (V m c main_v8 : S1024x1024.Idx → EReal) (ix2 k q) = (m ((c : Thread nD τ).loc main_arg4) : S1024x2048.Idx → EReal) (ix2 q (Gru.colL k)) := by
  have e : (V m c main_v8 : S1024x1024.Idx → EReal)
      = truncf (F := Ideal) .bf16 (transpose S1024x1024 [1, 0] (extractStridedSlice S1024x1024 ![0, 0]
          (m ((c : Thread nD τ).loc main_arg4) : S1024x2048.Idx → EReal) slices_S1024x2048_S1024x1024_0_0) transposes_S1024x1024_S1024x1024_1_0) bitsLt_bf16_f32 := by
    dsimp only [Gen.V, Gen.hostOps0]
    after_results
  rw [e, truncf_apply, Cert.Lib.HostMatrix.transposed_apply]
  exact extractStridedSlice_apply ![0, 0] _ slices_S1024x2048_S1024x1024_0_0 (ix2 q k) (ix2 q (Gru.colL k)) (fun a => match a with
    | ⟨0, _⟩ => by show q.val = 0 + q.val; omega
    | ⟨1, _⟩ => by show k.val = 0 + k.val; omega)

/-- The update gate's second weight operand: the second half of Wz, transposed. -/
theorem wzh_apply (c : Dev nD) (k q : Fin 1024) :
    (V m c main_v11 : S1024x1024.Idx → EReal) (ix2 k q) = (m ((c : Thread nD τ).loc main_arg4) : S1024x2048.Idx → EReal) (ix2 q (Gru.colR k)) := by
  have e : (V m c main_v11 : S1024x1024.Idx → EReal)
      = truncf (F := Ideal) .bf16 (transpose S1024x1024 [1, 0] (extractStridedSlice S1024x1024 ![0, 1024]
          (m ((c : Thread nD τ).loc main_arg4) : S1024x2048.Idx → EReal) slices_S1024x2048_S1024x1024_0_1024) transposes_S1024x1024_S1024x1024_1_0) bitsLt_bf16_f32 := by
    dsimp only [Gen.V, Gen.hostOps0]
    after_results
  rw [e, truncf_apply, Cert.Lib.HostMatrix.transposed_apply]
  exact extractStridedSlice_apply ![0, 1024] _ slices_S1024x2048_S1024x1024_0_1024 (ix2 q k) (ix2 q (Gru.colR k)) (fun a => match a with
    | ⟨0, _⟩ => by show q.val = 0 + q.val; omega
    | ⟨1, _⟩ => by show 1024 + k.val = 1024 + k.val; rfl)

/-- The candidate's first weight operand: the first half of Wg, transposed. -/
theorem wgx_apply (c : Dev nD) (k q : Fin 1024) :
    (V m c main_v14 : S1024x1024.Idx → EReal) (ix2 k q) = (m ((c : Thread nD τ).loc main_arg6) : S1024x2048.Idx → EReal) (ix2 q (Gru.colL k)) := by
  have e : (V m c main_v14 : S1024x1024.Idx → EReal)
      = truncf (F := Ideal) .bf16 (transpose S1024x1024 [1, 0] (extractStridedSlice S1024x1024 ![0, 0]
          (m ((c : Thread nD τ).loc main_arg6) : S1024x2048.Idx → EReal) slices_S1024x2048_S1024x1024_0_0) transposes_S1024x1024_S1024x1024_1_0) bitsLt_bf16_f32 := by
    dsimp only [Gen.V, Gen.hostOps0]
    after_results
  rw [e, truncf_apply, Cert.Lib.HostMatrix.transposed_apply]
  exact extractStridedSlice_apply ![0, 0] _ slices_S1024x2048_S1024x1024_0_0 (ix2 q k) (ix2 q (Gru.colL k)) (fun a => match a with
    | ⟨0, _⟩ => by show q.val = 0 + q.val; omega
    | ⟨1, _⟩ => by show k.val = 0 + k.val; omega)

/-- The candidate's second weight operand: the second half of Wg, transposed. -/
theorem wgh_apply (c : Dev nD) (k q : Fin 1024) :
    (V m c main_v17 : S1024x1024.Idx → EReal) (ix2 k q) = (m ((c : Thread nD τ).loc main_arg6) : S1024x2048.Idx → EReal) (ix2 q (Gru.colR k)) := by
  have e : (V m c main_v17 : S1024x1024.Idx → EReal)
      = truncf (F := Ideal) .bf16 (transpose S1024x1024 [1, 0] (extractStridedSlice S1024x1024 ![0, 1024]
          (m ((c : Thread nD τ).loc main_arg6) : S1024x2048.Idx → EReal) slices_S1024x2048_S1024x1024_0_1024) transposes_S1024x1024_S1024x1024_1_0) bitsLt_bf16_f32 := by
    dsimp only [Gen.V, Gen.hostOps0]
    after_results
  rw [e, truncf_apply, Cert.Lib.HostMatrix.transposed_apply]
  exact extractStridedSlice_apply ![0, 1024] _ slices_S1024x2048_S1024x1024_0_1024 (ix2 q k) (ix2 q (Gru.colR k)) (fun a => match a with
    | ⟨0, _⟩ => by show q.val = 0 + q.val; omega
    | ⟨1, _⟩ => by show 1024 + k.val = 1024 + k.val; rfl)

/-- The reset gate's bias as a row. -/
theorem br_apply (c : Dev nD) (q : Fin 1024) :
    (V m c main_v18 : S1x1024.Idx → EReal) (ix2 (0 : Fin 1) q) = (m ((c : Thread nD τ).loc main_arg3) : S1024.Idx → EReal) (ix1 q) := by
  have e : (V m c main_v18 : S1x1024.Idx → EReal)
      = shapeCast S1x1024 (m ((c : Thread nD τ).loc main_arg3) : S1024.Idx → EReal) shapeCasts_S1024_S1x1024 := by
    dsimp only [Gen.V, Gen.hostOps0]
    after_results
    rfl
  rw [e]
  exact Cert.Lib.HostMatrix.rowOfVec_apply _ shapeCasts_S1024_S1x1024 (0 : Fin 1) q

/-- The update gate's bias as a row. -/
theorem bz_apply (c : Dev nD) (q : Fin 1024) :
    (V m c main_v19 : S1x1024.Idx → EReal) (ix2 (0 : Fin 1) q) = (m ((c : Thread nD τ).loc main_arg5) : S1024.Idx → EReal) (ix1 q) := by
  have e : (V m c main_v19 : S1x1024.Idx → EReal)
      = shapeCast S1x1024 (m ((c : Thread nD τ).loc main_arg5) : S1024.Idx → EReal) shapeCasts_S1024_S1x1024 := by
    dsimp only [Gen.V, Gen.hostOps0]
    after_results
    rfl
  rw [e]
  exact Cert.Lib.HostMatrix.rowOfVec_apply _ shapeCasts_S1024_S1x1024 (0 : Fin 1) q

/-- The candidate's bias as a row. -/
theorem bg_apply (c : Dev nD) (q : Fin 1024) :
    (V m c main_v20 : S1x1024.Idx → EReal) (ix2 (0 : Fin 1) q) = (m ((c : Thread nD τ).loc main_arg7) : S1024.Idx → EReal) (ix1 q) := by
  have e : (V m c main_v20 : S1x1024.Idx → EReal)
      = shapeCast S1x1024 (m ((c : Thread nD τ).loc main_arg7) : S1024.Idx → EReal) shapeCasts_S1024_S1x1024 := by
    dsimp only [Gen.V, Gen.hostOps0]
    after_results
    rfl
  rw [e]
  exact Cert.Lib.HostMatrix.rowOfVec_apply _ shapeCasts_S1024_S1x1024 (0 : Fin 1) q

end Cert.Gru.Kernel

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.KernelBlock.lean ====
/-
  What the kernel's body leaves in its output block, entry by entry, on the extended reals.

  The body works on a block of 512 batch rows: X and H are the block's rows of the input and of the state, each
  weight operand is a whole [1024, 1024] matrix already laid out as (contraction index, hidden unit), each bias a
  [1, 1024] row.  For such operands the affine form of block row p for hidden unit q is

      blockAffine Wx Wh b X H (p, q) = Σ_k X(p,k) · Wx(k,q)  +  Σ_k H(p,k) · Wh(k,q)  +  b(0,q):

  two products into zero accumulators, added, plus the bias row spread over the rows.  Rounding the operands to
  bf16 on the way into a product is the identity on the extended reals.  The body's one store then holds

      (1 − z) · tanh(blockAffine Wgx Wgh bg X (r ⊙ H)) + z · H,     r = σ(blockAffine Wrx Wrh br X H),
                                                                    z = σ(blockAffine Wzx Wzh bz X H).
-/
import proofs.«115252_j472446402807_2_alg».proof.Proof.Gen.KernelIdeal.Frame
import proofs.«115252_j472446402807_2_alg».proof.Proof.LibPlainDot
import proofs.«115252_j472446402807_2_alg».proof.Proof.LibRank2Layout
import Idealize.ShloMosaic.Lib.Pipeline.Value
import Idealize.ShloMosaic.Lib.ValueIdx

noncomputable section

open scoped BigOperators

namespace Cert.Gru.Block

open Cert.KernelIdeal Cert.KernelIdeal.Gen Idealize.ShloMosaic Idealize.ShloMosaic.ValueIdx

/-- The affine form of block row p for hidden unit q, from operands laid out as the body finds them. -/
def blockAffine (Wx Wh : S1024x1024.Idx → EReal) (b : S1x1024.Idx → EReal) (X H : S512x1024.Idx → EReal)
    (p : Fin 512) (q : Fin 1024) : EReal :=
  (∑ k : Fin 1024, X (ix2 p k) * Wx (ix2 k q)) + (∑ k : Fin 1024, H (ix2 p k) * Wh (ix2 k q)) + b (ix2 (0 : Fin 1) q)

theorem zeros2 : (![0, 0] : Fin 2 → Nat) = fun _ => 0 := funext fun a => by fin_cases a <;> rfl

/-- Two products into zero accumulators, added, plus the bias row spread over the block's rows, read at (p, q). -/
theorem affine_apply (L1 L2 : FVec Ideal S512x1024 .bf16) (Wx Wh : Vec Ideal S1024x1024 .bf16)
    (b : Vec Ideal S1x1024 .f32) (p : Fin 512) (q : Fin 1024) :
    addf (addf (matmul dot_S512x1024_S1024x1024_S512x1024_1_0_0_1_n_n none L1
                  (shapeCast S1024x1024 Wx shapeCasts_S1024x1024_S1024x1024 : FVec Ideal S1024x1024 .bf16)
                  (constant (F := Ideal) S512x1024 .f32 0x00000000#32))
               (matmul dot_S512x1024_S1024x1024_S512x1024_1_0_0_1_n_n none L2
                  (shapeCast S1024x1024 Wh shapeCasts_S1024x1024_S1024x1024 : FVec Ideal S1024x1024 .bf16)
                  (constant (F := Ideal) S512x1024 .f32 0x00000000#32)))
         (broadcastTo S512x1024 (shapeCast S1x1024 b shapeCasts_S1x1024_S1x1024) broadcasts_S1x1024_S512x1024) (ix2 p q)
      = blockAffine Wx Wh b L1 L2 p q := by
  rw [shapeCast_self, shapeCast_self, shapeCast_self]
  show (FloatOps.matmul (φ₂ := .bf16) dot_S512x1024_S1024x1024_S512x1024_1_0_0_1_n_n none L1 Wx (constant (F := Ideal) S512x1024 .f32 0x00000000#32) (ix2 p q)
        + FloatOps.matmul (φ₂ := .bf16) dot_S512x1024_S1024x1024_S512x1024_1_0_0_1_n_n none L2 Wh (constant (F := Ideal) S512x1024 .f32 0x00000000#32) (ix2 p q))
      + broadcastTo S512x1024 b broadcasts_S1x1024_S512x1024 (ix2 p q) = _
  rw [Cert.Bridge.matmul_zero_plain _ rfl rfl rfl rfl rfl rfl, Cert.Bridge.matmul_zero_plain _ rfl rfl rfl rfl rfl rfl,
    Rank2.bcastRow_apply]
  rfl

/-- The input block against the candidate's first weight half. -/
theorem pay6_apply (x0 : Vec Ideal S512x1024 .f32) (x6 : Vec Ideal S1024x1024 .bf16) (p : Fin 512) (q : Fin 1024) :
    k0_pay6 (F := Ideal) x0 x6 (ix2 p q) = ∑ k : Fin 1024, x0 (ix2 p k) * x6 (ix2 k q) := by
  unfold k0_pay6 k0_pay2
  dsimp only
  rw [shapeCast_self]
  exact Cert.Bridge.matmul_zero_plain _ rfl rfl rfl rfl rfl rfl none _ _ p q

/-- The update gate of the block. -/
theorem pay4_apply (x0 x1 : Vec Ideal S512x1024 .f32) (x4 x5 : Vec Ideal S1024x1024 .bf16) (x9 : Vec Ideal S1x1024 .f32)
    (p : Fin 512) (q : Fin 1024) :
    k0_pay4 (F := Ideal) x0 x1 x4 x5 x9 (ix2 p q) = Ideal.logistic (blockAffine x4 x5 x9 x0 x1 p q) := by
  unfold k0_pay4 k0_pay2 k0_pay3
  dsimp only
  exact congrArg Ideal.logistic (affine_apply _ _ x4 x5 x9 p q)

/-- The reset gate of the block times the state block. -/
theorem pay5_apply (x0 x1 : Vec Ideal S512x1024 .f32) (x2 x3 : Vec Ideal S1024x1024 .bf16) (x8 : Vec Ideal S1x1024 .f32)
    (p : Fin 512) (q : Fin 1024) :
    k0_pay5 (F := Ideal) x0 x1 x2 x3 x8 (ix2 p q) = Ideal.logistic (blockAffine x2 x3 x8 x0 x1 p q) * x1 (ix2 p q) := by
  unfold k0_pay5 k0_pay2 k0_pay3
  dsimp only
  exact congrArg (fun t => Ideal.logistic t * x1 (ix2 p q)) (affine_apply _ _ x2 x3 x8 p q)

/-- The blend: from the state block, the update gate, the reset state, the candidate's first product, its second
    weight half and its bias row. -/
theorem pay1_apply (v1 : Vec Ideal S512x1024 .f32) (v27 : FVec Ideal S512x1024 .f32) (v29 : FVec Ideal S512x1024 .bf16)
    (v32 : FVec Ideal S512x1024 .f32) (v33 : Vec Ideal S1024x1024 .bf16) (v37 : Vec Ideal S1x1024 .f32)
    (p : Fin 512) (q : Fin 1024) :
    k0_pay1 (F := Ideal) v1 v27 v29 v32 v33 v37 (ix2 p q)
      = (Ideal.ofBits .f32 0x3F800000#32 - v27 (ix2 p q))
          * Ideal.tanh ((v32 (ix2 p q) + ∑ k : Fin 1024, v29 (ix2 p k) * v33 (ix2 k q)) + v37 (ix2 (0 : Fin 1) q))
        + v27 (ix2 p q) * v1 (ix2 p q) := by
  unfold k0_pay1
  rw [shapeCast_self, shapeCast_self]
  show (Ideal.ofBits .f32 0x3F800000#32 - v27 (ix2 p q))
      * Ideal.tanh ((v32 (ix2 p q) + FloatOps.matmul (φ₂ := .bf16) dot_S512x1024_S1024x1024_S512x1024_1_0_0_1_n_n none v29 v33
            (constant (F := Ideal) S512x1024 .f32 0x00000000#32) (ix2 p q))
          + broadcastTo S512x1024 v37 broadcasts_S1x1024_S512x1024 (ix2 p q))
      + v27 (ix2 p q) * v1 (ix2 p q) = _
  rw [Cert.Bridge.matmul_zero_plain _ rfl rfl rfl rfl rfl rfl, Rank2.bcastRow_apply]

/-- THE BLOCK the body stores, entry (p, q), from the eleven input blocks. -/
theorem body_apply (x0 x1 : Vec Ideal S512x1024 .f32) (x2 x3 x4 x5 x6 x7 : Vec Ideal S1024x1024 .bf16)
    (x8 x9 x10 : Vec Ideal S1x1024 .f32) (p : Fin 512) (q : Fin 1024) :
    out0_11 (F := Ideal) x0 x1 x2 x3 x4 x5 x6 x7 x8 x9 x10 (ix2 p q)
      = (Ideal.ofBits .f32 0x3F800000#32 - Ideal.logistic (blockAffine x4 x5 x9 x0 x1 p q))
          * Ideal.tanh (blockAffine x6 x7 x10 x0
              (fun i => Ideal.logistic (blockAffine x2 x3 x8 x0 x1 (i 0) (i 1)) * x1 i) p q)
        + Ideal.logistic (blockAffine x4 x5 x9 x0 x1 p q) * x1 (ix2 p q) := by
  unfold out0_11
  rw [View.canon_unit_zero zeros2]
  simp only [View.ld_unit_zero (S := S512x1024) zeros2, View.ld_unit_zero (S := S1024x1024) zeros2,
    View.ld_unit_zero (S := S1x1024) zeros2]
  rw [pay1_apply, pay4_apply, pay6_apply]
  simp only [pay5_apply]
  rfl

end Cert.Gru.Block

end
-- ==== Proof.BlockCell.lean ====
/-
  A block of the kernel's result is a block of the cell.

  Grid point T works on batch rows 512·T … 512·T + 511.  If the body's operands are what the windows deliver — the
  input and state blocks are those rows of the arrays, each weight operand is one half of a weight matrix transposed
  (entry (k, q) is entry (q, k) or (q, 1024 + k) of the matrix), each bias operand is the bias as a row — then the
  block's affine form of row p is the cell's affine form of row 512·T + p, sum for sum, and the blend the body stores at
  (p, q) is the cell at (512·T + p, q).  The reset gate enters the candidate only through the same row, so the
  statement for the candidate's affine form uses the statement for the reset gate's.
-/
import proofs.«115252_j472446402807_2_alg».proof.Proof.KernelBlock
import proofs.«115252_j472446402807_2_alg».proof.Proof.GruSpec

noncomputable section

open scoped BigOperators

namespace Cert.Gru.Block

open Cert.KernelIdeal Idealize.ShloMosaic Idealize.ShloMosaic.ValueIdx

/-- Row p of grid point T's block is batch row 512·T + p. -/
def row (T : Nat) (hT : T < 16) (p : Fin 512) : Fin 8192 := ⟨512 * T + p.val, by have := p.isLt; omega⟩

/-- The block's affine form is the cell's, when the operands are the arrays' rows, halves and bias. -/
theorem blockAffine_eq (T : Nat) (hT : T < 16) (W : Gru.Wt) (bb : Gru.Bias) (X H : Gru.Act)
    (Wx Wh : S1024x1024.Idx → EReal) (b : S1x1024.Idx → EReal) (X0 H0 : S512x1024.Idx → EReal)
    (hwx : ∀ (k q : Fin 1024), Wx (ix2 k q) = W (ix2 q (Gru.colL k)))
    (hwh : ∀ (k q : Fin 1024), Wh (ix2 k q) = W (ix2 q (Gru.colR k)))
    (hb : ∀ q : Fin 1024, b (ix2 (0 : Fin 1) q) = bb (ix1 q))
    (hX : ∀ (p : Fin 512) (k : Fin 1024), X0 (ix2 p k) = X (ix2 (row T hT p) k))
    (hH : ∀ (p : Fin 512) (k : Fin 1024), H0 (ix2 p k) = H (ix2 (row T hT p) k))
    (p : Fin 512) (q : Fin 1024) :
    blockAffine Wx Wh b X0 H0 p q = Gru.affine W bb X H (row T hT p) q := by
  unfold blockAffine Gru.affine
  simp only [hwx, hwh, hb, hX, hH]

/-- THE BLEND the body stores at (p, q) is the cell at (512·T + p, q). -/
theorem block_is_cell (T : Nat) (hT : T < 16) (x h : Gru.Act) (Wr : Gru.Wt) (br : Gru.Bias) (Wz : Gru.Wt) (bz : Gru.Bias)
    (Wg : Gru.Wt) (bg : Gru.Bias)
    (x0 x1 : S512x1024.Idx → EReal) (x2 x3 x4 x5 x6 x7 : S1024x1024.Idx → EReal) (x8 x9 x10 : S1x1024.Idx → EReal)
    (h0 : ∀ (p : Fin 512) (k : Fin 1024), x0 (ix2 p k) = x (ix2 (row T hT p) k))
    (h1 : ∀ (p : Fin 512) (k : Fin 1024), x1 (ix2 p k) = h (ix2 (row T hT p) k))
    (h2 : ∀ (k q : Fin 1024), x2 (ix2 k q) = Wr (ix2 q (Gru.colL k)))
    (h3 : ∀ (k q : Fin 1024), x3 (ix2 k q) = Wr (ix2 q (Gru.colR k)))
    (h4 : ∀ (k q : Fin 1024), x4 (ix2 k q) = Wz (ix2 q (Gru.colL k)))
    (h5 : ∀ (k q : Fin 1024), x5 (ix2 k q) = Wz (ix2 q (Gru.colR k)))
    (h6 : ∀ (k q : Fin 1024), x6 (ix2 k q) = Wg (ix2 q (Gru.colL k)))
    (h7 : ∀ (k q : Fin 1024), x7 (ix2 k q) = Wg (ix2 q (Gru.colR k)))
    (h8 : ∀ q : Fin 1024, x8 (ix2 (0 : Fin 1) q) = br (ix1 q))
    (h9 : ∀ q : Fin 1024, x9 (ix2 (0 : Fin 1) q) = bz (ix1 q))
    (h10 : ∀ q : Fin 1024, x10 (ix2 (0 : Fin 1) q) = bg (ix1 q))
    (p : Fin 512) (q : Fin 1024) :
    (Ideal.ofBits .f32 0x3F800000#32 - Ideal.logistic (blockAffine x4 x5 x9 x0 x1 p q))
        * Ideal.tanh (blockAffine x6 x7 x10 x0
            (fun i => Ideal.logistic (blockAffine x2 x3 x8 x0 x1 (i 0) (i 1)) * x1 i) p q)
      + Ideal.logistic (blockAffine x4 x5 x9 x0 x1 p q) * x1 (ix2 p q)
    = Gru.cell x h Wr br Wz bz Wg bg (ix2 (row T hT p) q) := by
  have hrs : ∀ (p : Fin 512) (k : Fin 1024),
      (fun i : S512x1024.Idx => Ideal.logistic (blockAffine x2 x3 x8 x0 x1 (i 0) (i 1)) * x1 i) (ix2 p k)
        = Gru.resetState Wr br x h (ix2 (row T hT p) k) := by
    intro p k
    show Ideal.logistic (blockAffine x2 x3 x8 x0 x1 p k) * x1 (ix2 p k)
      = Ideal.logistic (Gru.affine Wr br x h (row T hT p) k) * h (ix2 (row T hT p) k)
    rw [blockAffine_eq T hT Wr br x h x2 x3 x8 x0 x1 h2 h3 h8 h0 h1, h1]
  rw [blockAffine_eq T hT Wz bz x h x4 x5 x9 x0 x1 h4 h5 h9 h0 h1,
    blockAffine_eq T hT Wg bg x (Gru.resetState Wr br x h) x6 x7 x10 x0 _ h6 h7 h10 h0 hrs, h1]
  rfl

end Cert.Gru.Block

end
-- ==== Proof.KernelValue.lean ====
/-
  The kernel's result array is the cell of the arguments.

  The grid has 16 points; point t fetches rows 512·t … 512·t + 511 of the input and of the state, the six weight
  operands and the three bias rows whole (their block index is (0, 0) at every point), and writes back rows
  512·t … 512·t + 511 of the result.  So what point t writes back is block t of the cell (the block lemma, with the
  windows' contents read off the arrays), the sixteen blocks cover the result array (row r lies in block r / 512), and
  the array ends holding the cell.
-/
import proofs.«115252_j472446402807_2_alg».proof.Proof.Gen.KernelIdeal.Value
import proofs.«115252_j472446402807_2_alg».proof.Proof.KernelWindows
import proofs.«115252_j472446402807_2_alg».proof.Proof.BlockCell

noncomputable section

namespace Cert.Gru.Kernel

open Cert.KernelIdeal Cert.KernelIdeal.Gen Idealize.ShloMosaic Idealize.ShloMosaic.TcCoe Idealize.ShloMosaic.ValueIdx
  Idealize.SL.Sem
open Idealize.ShloMosaic.Pipeline (Dat)

variable (m : (ℓ : Loc nD τ sig) → Buf (Elt Ideal) ℓ) (ρ : Dev nD → PrngReg)

/-- The cell of the eight argument arrays as launched. -/
def result (c : Dev nD) : S8192x1024.Idx → EReal :=
  Gru.cell (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- The printed index maps, decided over the sixteen grid points: the input, the state and the result move with the
    point along the rows; every other window stays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- The grid has sixteen points. -/
theorem point_lt (t : Fin cfg0.N) : t.val < 16 :=
  have hN : cfg0.N = 16 := N_0
  Nat.lt_of_lt_of_eq t.isLt hN

/-- The input block at point t: rows 512·t … of the input. -/
theorem xblk (c : Dev nD) (t : Fin cfg0.N) (p : Fin 512) (k : Fin 1024) :
    iblk m c 0 t (ix2 p k) = (m ((c : Thread nD τ).loc main_arg0) : S8192x1024.Idx → EReal) (ix2 (Block.row t.val (point_lt t) p) k) := by
  rw [← V_main_arg0 m c]
  show V m c main_arg0 (((cfg0.win 0).blk t).view.emb (ix2 p k)) = V m c main_arg0 (ix2 (Block.row t.val (point_lt t) p) k)
  refine congrArg (V m c main_arg0) (funext fun a => Fin.ext ?_)
  obtain ⟨⟨e0, e1⟩, -⟩ := idx_facts t
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- The state block at point t: rows 512·t … of the state. -/
theorem hblk (c : Dev nD) (t : Fin cfg0.N) (p : Fin 512) (k : Fin 1024) :
    iblk m c 1 t (ix2 p k) = (m ((c : Thread nD τ).loc main_arg1) : S8192x1024.Idx → EReal) (ix2 (Block.row t.val (point_lt t) p) k) := by
  rw [← V_main_arg1 m c]
  show V m c main_arg1 (((cfg0.win 1).blk t).view.emb (ix2 p k)) = V m c main_arg1 (ix2 (Block.row t.val (point_lt t) p) k)
  refine congrArg (V m c main_arg1) (funext fun a => Fin.ext ?_)
  obtain ⟨-, ⟨e0, e1⟩, -⟩ := idx_facts t
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

/-- The reset gate's first weight operand, whole at every point. -/
theorem wrx_blk (c : Dev nD) (t : Fin cfg0.N) (k q : Fin 1024) :
    iblk m c 2 t (ix2 k q) = (m ((c : Thread nD τ).loc main_arg2) : S1024x2048.Idx → EReal) (ix2 q (Gru.colL k)) := by
  rw [← wrx_apply m c k q]
  show V m c main_v2 (((cfg0.win 2).blk t).view.emb (ix2 k q)) = V m c main_v2 (ix2 k q)
  refine congrArg (V m c main_v2) (funext fun a => Fin.ext ?_)
  have e := (idx_facts t).2.2.1
  match a with
  | ⟨0, _⟩ => show win0_2.index t (0 : Fin 2) * 1024 + 1 * k.val = k.val; rw [e.1]; omega
  | ⟨1, _⟩ => show win0_2.index t (1 : Fin 2) * 1024 + 1 * q.val = q.val; rw [e.2]; omega

/-- The reset gate's second weight operand, whole at every point. -/
theorem wrh_blk (c : Dev nD) (t : Fin cfg0.N) (k q : Fin 1024) :
    iblk m c 3 t (ix2 k q) = (m ((c : Thread nD τ).loc main_arg2) : S1024x2048.Idx → EReal) (ix2 q (Gru.colR k)) := by
  rw [← wrh_apply m c k q]
  show V m c main_v5 (((cfg0.win 3).blk t).view.emb (ix2 k q)) = V m c main_v5 (ix2 k q)
  refine congrArg (V m c main_v5) (funext fun a => Fin.ext ?_)
  have e := (idx_facts t).2.2.2.1
  match a with
  | ⟨0, _⟩ => show win0_3.index t (0 : Fin 2) * 1024 + 1 * k.val = k.val; rw [e.1]; omega
  | ⟨1, _⟩ => show win0_3.index t (1 : Fin 2) * 1024 + 1 * q.val = q.val; rw [e.2]; omega

/-- The update gate's first weight operand, whole at every point. -/
theorem wzx_blk (c : Dev nD) (t : Fin cfg0.N) (k q : Fin 1024) :
    iblk m c 4 t (ix2 k q) = (m ((c : Thread nD τ).loc main_arg4) : S1024x2048.Idx → EReal) (ix2 q (Gru.colL k)) := by
  rw [← wzx_apply m c k q]
  show V m c main_v8 (((cfg0.win 4).blk t).view.emb (ix2 k q)) = V m c main_v8 (ix2 k q)
  refine congrArg (V m c main_v8) (funext fun a => Fin.ext ?_)
  have e := (idx_facts t).2.2.2.2.1
  match a with
  | ⟨0, _⟩ => show win0_4.index t (0 : Fin 2) * 1024 + 1 * k.val = k.val; rw [e.1]; omega
  | ⟨1, _⟩ => show win0_4.index t (1 : Fin 2) * 1024 + 1 * q.val = q.val; rw [e.2]; omega

/-- The update gate's second weight operand, whole at every point. -/
theorem wzh_blk (c : Dev nD) (t : Fin cfg0.N) (k q : Fin 1024) :
    iblk m c 5 t (ix2 k q) = (m ((c : Thread nD τ).loc main_arg4) : S1024x2048.Idx → EReal) (ix2 q (Gru.colR k)) := by
  rw [← wzh_apply m c k q]
  show V m c main_v11 (((cfg0.win 5).blk t).view.emb (ix2 k q)) = V m c main_v11 (ix2 k q)
  refine congrArg (V m c main_v11) (funext fun a => Fin.ext ?_)
  have e := (idx_facts t).2.2.2.2.2.1
  match a with
  | ⟨0, _⟩ => show win0_5.index t (0 : Fin 2) * 1024 + 1 * k.val = k.val; rw [e.1]; omega
  | ⟨1, _⟩ => show win0_5.index t (1 : Fin 2) * 1024 + 1 * q.val = q.val; rw [e.2]; omega

/-- The candidate's first weight operand, whole at every point. -/
theorem wgx_blk (c : Dev nD) (t : Fin cfg0.N) (k q : Fin 1024) :
    iblk m c 6 t (ix2 k q) = (m ((c : Thread nD τ).loc main_arg6) : S1024x2048.Idx → EReal) (ix2 q (Gru.colL k)) := by
  rw [← wgx_apply m c k q]
  show V m c main_v14 (((cfg0.win 6).blk t).view.emb (ix2 k q)) = V m c main_v14 (ix2 k q)
  refine congrArg (V m c main_v14) (funext fun a => Fin.ext ?_)
  have e := (idx_facts t).2.2.2.2.2.2.1
  match a with
  | ⟨0, _⟩ => show win0_6.index t (0 : Fin 2) * 1024 + 1 * k.val = k.val; rw [e.1]; omega
  | ⟨1, _⟩ => show win0_6.index t (1 : Fin 2) * 1024 + 1 * q.val = q.val; rw [e.2]; omega

/-- The candidate's second weight operand, whole at every point. -/
theorem wgh_blk (c : Dev nD) (t : Fin cfg0.N) (k q : Fin 1024) :
    iblk m c 7 t (ix2 k q) = (m ((c : Thread nD τ).loc main_arg6) : S1024x2048.Idx → EReal) (ix2 q (Gru.colR k)) := by
  rw [← wgh_apply m c k q]
  show V m c main_v17 (((cfg0.win 7).blk t).view.emb (ix2 k q)) = V m c main_v17 (ix2 k q)
  refine congrArg (V m c main_v17) (funext fun a => Fin.ext ?_)
  have e := (idx_facts t).2.2.2.2.2.2.2.1
  match a with
  | ⟨0, _⟩ => show win0_7.index t (0 : Fin 2) * 1024 + 1 * k.val = k.val; rw [e.1]; omega
  | ⟨1, _⟩ => show win0_7.index t (1 : Fin 2) * 1024 + 1 * q.val = q.val; rw [e.2]; omega

/-- The reset gate's bias row, whole at every point. -/
theorem br_blk (c : Dev nD) (t : Fin cfg0.N) (q : Fin 1024) :
    iblk m c 8 t (ix2 (0 : Fin 1) q) = (m ((c : Thread nD τ).loc main_arg3) : S1024.Idx → EReal) (ix1 q) := by
  rw [← br_apply m c q]
  show V m c main_v18 (((cfg0.win 8).blk t).view.emb (ix2 (0 : Fin 1) q)) = V m c main_v18 (ix2 (0 : Fin 1) q)
  refine congrArg (V m c main_v18) (funext fun a => Fin.ext ?_)
  have e := (idx_facts t).2.2.2.2.2.2.2.2.1
  match a with
  | ⟨0, _⟩ => show win0_8.index t (0 : Fin 2) * 1 + 1 * 0 = 0; rw [e.1]
  | ⟨1, _⟩ => show win0_8.index t (1 : Fin 2) * 1024 + 1 * q.val = q.val; rw [e.2]; omega

/-- The update gate's bias row, whole at every point. -/
theorem bz_blk (c : Dev nD) (t : Fin cfg0.N) (q : Fin 1024) :
    iblk m c 9 t (ix2 (0 : Fin 1) q) = (m ((c : Thread nD τ).loc main_arg5) : S1024.Idx → EReal) (ix1 q) := by
  rw [← bz_apply m c q]
  show V m c main_v19 (((cfg0.win 9).blk t).view.emb (ix2 (0 : Fin 1) q)) = V m c main_v19 (ix2 (0 : Fin 1) q)
  refine congrArg (V m c main_v19) (funext fun a => Fin.ext ?_)
  have e := (idx_facts t).2.2.2.2.2.2.2.2.2.1
  match a with
  | ⟨0, _⟩ => show win0_9.index t (0 : Fin 2) * 1 + 1 * 0 = 0; rw [e.1]
  | ⟨1, _⟩ => show win0_9.index t (1 : Fin 2) * 1024 + 1 * q.val = q.val; rw [e.2]; omega

/-- The candidate's bias row, whole at every point. -/
theorem bg_blk (c : Dev nD) (t : Fin cfg0.N) (q : Fin 1024) :
    iblk m c 10 t (ix2 (0 : Fin 1) q) = (m ((c : Thread nD τ).loc main_arg7) : S1024.Idx → EReal) (ix1 q) := by
  rw [← bg_apply m c q]
  show V m c main_v20 (((cfg0.win 10).blk t).view.emb (ix2 (0 : Fin 1) q)) = V m c main_v20 (ix2 (0 : Fin 1) q)
  refine congrArg (V m c main_v20) (funext fun a => Fin.ext ?_)
  have e := (idx_facts t).2.2.2.2.2.2.2.2.2.2.1
  match a with
  | ⟨0, _⟩ => show win0_10.index t (0 : Fin 2) * 1 + 1 * 0 = 0; rw [e.1]
  | ⟨1, _⟩ => show win0_10.index t (1 : Fin 2) * 1024 + 1 * q.val = q.val; rw [e.2]; omega

/-- WHAT POINT t WRITES BACK is block t of the cell. -/
theorem flushed_eq (c : Dev nD) (t : Fin cfg0.N) :
    (dats m 0 c).flushed 11 t = ((cfg0.win 11).blk t).view.read (Elt Ideal) (result m c) := by
  rw [Cert.KernelIdeal.Value.flushed11]
  funext j
  obtain ⟨p, q, rfl⟩ : ∃ (p : Fin 512) (q : Fin 1024), j = ix2 p q := ⟨j 0, j 1, eq_ix2 j⟩
  have hemb : ((cfg0.win 11).blk t).view.emb (ix2 p q) = ix2 (Block.row t.val (point_lt t) p) q := by
    funext a; apply Fin.ext
    have e := (idx_facts t).2.2.2.2.2.2.2.2.2.2.2
    match a with
    | ⟨0, _⟩ => show win0_11.index t (0 : Fin 2) * 512 + 1 * p.val = 512 * t.val + p.val; rw [e.1]; omega
    | ⟨1, _⟩ => show win0_11.index t (1 : Fin 2) * 1024 + 1 * q.val = q.val; rw [e.2]; omega
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = result m c (((cfg0.win 11).blk t).view.emb (ix2 p q))
  rw [hemb]
  refine (Block.body_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  exact Block.block_is_cell t.val (point_lt t) _ _ _ _ _ _ _ _
    (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (xblk m c t) (hblk m c t) (wrx_blk m c t) (wrh_blk m c t) (wzx_blk m c t) (wzh_blk m c t) (wgx_blk m c t)
    (wgh_blk m c t) (br_blk m c t) (bz_blk m c t) (bg_blk m c t) p q

/-- An index of the result array is in point t's block iff each coordinate is in the block's range on its axis. -/
theorem mem_blk (t : Fin cfg0.N) (i : S8192x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v21).slice (win0_11.rect t)).set ↔ _
  rw [View.set_slice_whole, Rect.mem_set_unit]
  exact Iff.rfl

/-- The sixteen blocks cover the result array: row r lies in block r / 512. -/
theorem cover (i : S8192x1024.Idx) : ∃ t : Fin cfg0.N, (cfg0.win 11).flush t = true ∧ i ∈ ((cfg0.win 11).blk t).view.set := by
  have hN : cfg0.N = 16 := N_0
  have hi0 : (i 0).val < 8192 := (i 0).isLt
  have hi1 : (i 1).val < 1024 := (i 1).isLt
  let t : Fin cfg0.N := ⟨(i 0).val / 512, by rw [hN]; omega⟩
  have e := (idx_facts t).2.2.2.2.2.2.2.2.2.2.2
  have ht : t.val = (i 0).val / 512 := rfl
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512
              rw [e.1, ht]; omega
  | ⟨1, _⟩ => show win0_11.index t (1 : Fin 2) * 1024 ≤ (i 1).val ∧ (i 1).val < win0_11.index t (1 : Fin 2) * 1024 + 1024
              rw [e.2]; omega

/-- THE RESULT ARRAY after the run is the cell of the arguments. -/
theorem final (c : Dev nD) : (dats m 0 c).arrAt 11 cfg0.N = result m c :=
  (dats m 0 c).arrAt_eq_of_cover 11 (result m c) (fun t _ => flushed_eq m c t) cover

/-- The kernel's run: it ends with the result array at the cell of the arguments, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Gru.Kernel

end
-- ==== Proof.lean ====
/-
  A gated recurrent cell computed by a kernel over blocks of 512 batch rows, against its whole-array reference, on
  the extended reals.

  Both programs compute, for batch row p and hidden unit q,

      h'(p,q) = (1 − z(p,q)) · tanh(aff_g(p,q)) + z(p,q) · h(p,q),
      z = σ(aff_z),   r = σ(aff_r),   aff_•(p,q) = Σ_k x(p,k)·W•(q,k) + Σ_k s(p,k)·W•(q,1024+k) + b•(q),

  with s = h for the two gates and s = r ⊙ h for the candidate (`Gru.cell`, Proof/GruSpec.lean).

  The kernel receives each weight matrix as its two halves, transposed, and adds the two half-products; the reference
  joins [x, s] side by side and multiplies once by the transposed matrix.  The two agree because a sum over 2048 joined
  columns is the sum over the first 1024 plus the sum over the last 1024: a regrouping of one finite sum, which holds
  for all extended reals, so the finiteness of the inputs is never used.  Rounding an operand to bf16 before a product
  is the identity here, a product into a zero accumulator is the plain sum of products on both sides, and the
  reference's 1 / (1 + e^(−t)) is the logistic function by definition.

  Kernel side: Proof/KernelBlock.lean reads the body's stored block entry by entry; Proof/KernelWindows.lean reads what
  the host hands to the windows; Proof/BlockCell.lean shows a block of the result is a block of the cell;
  Proof/KernelValue.lean assembles the sixteen blocks into the array.  Reference side: Proof/RefValue.lean reads the
  reference's composed term at an index.  The three frames are the generated frame runs and the reference's run with
  its result dropped; the idealization rewrote no operation, so it preserves the kernel trivially.
-/
import proofs.«115252_j472446402807_2_alg».proof.Defs
import proofs.«115252_j472446402807_2_alg».proof.Proof.Gen.Kernel
import proofs.«115252_j472446402807_2_alg».proof.Proof.Gen.Kernel.Frame
import proofs.«115252_j472446402807_2_alg».proof.Proof.Gen.KernelIdeal
import proofs.«115252_j472446402807_2_alg».proof.Proof.Gen.KernelIdeal.Frame
import proofs.«115252_j472446402807_2_alg».proof.Proof.Gen.KernelIdeal.Value
import proofs.«115252_j472446402807_2_alg».proof.Proof.Gen.ReferenceIdeal
import proofs.«115252_j472446402807_2_alg».proof.Proof.Gen.Pre_finite_inputs
import proofs.«115252_j472446402807_2_alg».proof.Proof.RefRun
import proofs.«115252_j472446402807_2_alg».proof.Proof.RefValue
import proofs.«115252_j472446402807_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories that agree on the eight arguments both programs end with the result array at the cell of the
    arguments: the kernel by its sixteen blocks, the reference by its composed term read at an index. -/
theorem algebraic : Cert.algebraic_KernelIdeal_ReferenceIdeal := by
  intro m ρ m' ρ' _ hagree
  refine ⟨fun c => Cert.Gru.Kernel.result m c, Cert.Gru.Kernel.run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7⟩ := hagree c
  rw [e0, e1, e2, e3, e4, e5, e6, e7]
  exact Cert.Gru.Ref.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
